-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel

variable [Facts]

def fn {F : FTy → Type} [FloatOps F] (main_arg0 : FVec F S4x8x2048x64 .f32) (main_arg1 : FVec F S4x8x2048x64 .f32) (main_arg2 : FVec F S4x8x2048x64 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  main_v13
-- ==== Kernel.lean ====
abbrev S4x8x2048x64 : Shape := ⟨4, ![4, 8, 2048, 64]⟩
abbrev S4x8x2048x2048 : Shape := ⟨4, ![4, 8, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S2048x64 : Shape := ⟨2, ![2048, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 12
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x8x2048x64, .f32⟩
  | .hbm, ⟨4, _⟩ => ⟨S4x8x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x2048, .f32⟩
  | .local _ .vmem, ⟨9, _⟩ => ⟨S1x1x512x2048, .f32⟩
  | .local _ .vmem, ⟨10, _⟩ => ⟨S2048x64, .bf16⟩
  | .local _ .vmem, ⟨11, _⟩ => ⟨S2048x64, .bf16⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x8x2048x64.size a
  hwx0_0 : ∀ i : grid0.Coords, EltTy.bits .f32 = 32 ∨ (Rect.block (s := S4x8x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x8x2048x64.size a
  hwx0_1 : ∀ i : grid0.Coords, EltTy.bits .f32 = 32 ∨ (Rect.block (s := S4x8x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x8x2048x64.size a
  hwx0_2 : ∀ i : grid0.Coords, EltTy.bits .f32 = 32 ∨ (Rect.block (s := S4x8x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S4x8x2048x64.size a
  hwx0_3 : ∀ i : grid0.Coords, EltTy.bits .f32 = 32 ∨ (Rect.block (s := S4x8x2048x64) S1x1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S4x8x2048x2048.size a
  hwx0_4 : ∀ i : grid0.Coords, EltTy.bits .f32 = 32 ∨ (Rect.block (s := S4x8x2048x2048) S1x1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S_ : Shape := ⟨0, ![]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S_, .f32⟩
  | .hbm, ⟨4, _⟩ => ⟨S4x8x2048x64, .f32⟩
  | .hbm, ⟨5, _⟩ => ⟨S4x8x2048x64, .f32⟩
  | .hbm, ⟨6, _⟩ => ⟨S_, .f32⟩
  | .hbm, ⟨7, _⟩ => ⟨S4x8x2048x64, .f32⟩
  | .hbm, ⟨8, _⟩ => ⟨S4x8x2048x64, .f32⟩
  | .hbm, ⟨9, _⟩ => ⟨S_, .f32⟩
  | .hbm, ⟨10, _⟩ => ⟨S4x8x2048x64, .f32⟩
  | .hbm, ⟨11, _⟩ => ⟨S4x8x2048x64, .f32⟩
  | .hbm, ⟨12, _⟩ => ⟨S_, .f32⟩
  | .hbm, ⟨13, _⟩ => ⟨S4x8x2048x64, .f32⟩
  | .hbm, ⟨14, _⟩ => ⟨S4x8x2048x64, .f32⟩
  | .hbm, ⟨15, _⟩ => ⟨S4x8x2048x2048, .f32⟩
  | .hbm, ⟨16, _⟩ => ⟨S_, .f32⟩
  | .hbm, ⟨17, _⟩ => ⟨S4x8x2048x2048, .f32⟩
  | .hbm, ⟨18, _⟩ => ⟨S4x8x2048x2048, .f32⟩
  | .hbm, ⟨19, _⟩ => ⟨S_, .f32⟩
  | .hbm, ⟨20, _⟩ => ⟨S4x8x2048x2048, .f32⟩
  | .hbm, ⟨21, _⟩ => ⟨S4x8x2048x2048, .f32⟩
  | .hbm, ⟨22, _⟩ => ⟨S_, .f32⟩
  | .hbm, ⟨23, _⟩ => ⟨S4x8x2048x2048, .f32⟩
  | .hbm, ⟨24, _⟩ => ⟨S4x8x2048x2048, .f32⟩
  | .hbm, ⟨25, _⟩ => ⟨S_, .f32⟩
  | .hbm, ⟨26, _⟩ => ⟨S4x8x2048, .f32⟩
  | .hbm, ⟨27, _⟩ => ⟨S_, .f32⟩
  | .hbm, ⟨28, _⟩ => ⟨S4x8x2048, .f32⟩
  | .hbm, ⟨29, _⟩ => ⟨S4x8x2048, .f32⟩
  | .hbm, ⟨30, _⟩ => ⟨S4x8x2048x1, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S4x8x2048, .f32⟩
  | .hbm, ⟨36, _⟩ => ⟨S4x8x2048x1, .f32⟩
  | .hbm, ⟨37, _⟩ => ⟨S4x8x2048x2048, .f32⟩
  | .hbm, ⟨38, _⟩ => ⟨S4x8x2048x2048, .f32⟩
  | .hbm, ⟨39, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_cst_7 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S_S4x8x2048x64 : S_.BroadcastsInDim S4x8x2048x64 (![] : Fin 0 → Fin S4x8x2048x64.rank)
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.Pieces.lean ====
/-
  What one grid point leaves behind, as pure functions of what it loaded.

  At a point with query-tile index 0 (the first of a head's four tiles) the body first fills the two
  carried buffers from the head's key and value blocks — the signed keys 2·k − 1 and the values — and then
  computes, from the query tile and those buffers, the tile's attention weights and attended values. At the
  other three points of the head it computes the same two results from the query tile and whatever the
  carried buffers hold. Each buffer the body writes is written by ONE store covering it whole, so what it
  holds afterwards is that store's value; a load of a buffer the body has just filled reads that value back.
-/
import proofs.«177471_j6932077216007_2_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen

variable {F : FTy → Type} [FloatOps F]

theorem hz4 : (![0, 0, 0, 0] : Fin 4 → Nat) = fun _ => 0 := funext fun a => by fin_cases a <;> rfl
theorem hz2 : (![0, 0] : Fin 2 → Nat) = fun _ => 0 := funext fun a => by fin_cases a <;> rfl

/-- First tile of a head: the first carried buffer ends at the signed keys of the head's key block. -/
theorem keys_first (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x1x512x64 .f32) (x1 : Vec F S1x1x2048x64 .f32) (x2 : Vec F S1x1x2048x64 .f32) :
    sout0_A_0 c i arg3 harg3 arg4 harg4 arg5 harg5 arg6 harg6 arg7 harg7 arg8 harg8 arg9 harg9 hc0 x0 x1 x2 = k0_pay2 x1 := by
  unfold sout0_A_0
  rw [View.read_writes_eq_canon _ _ _ (scover0_A_0 c i arg3 harg3 arg4 harg4 arg5 harg5 arg6 harg6 arg7 harg7 arg8 harg8 arg9 harg9 hc0 x0 x1 x2)]
  unfold kernelRun0_A
  dsimp only
  sl_unfold_words
  rw [View.canon_unit_zero hz2]
  simp only [View.readAt_eq_ld, harg4.read_unread, View.ld_unit_zero (S := S1x1x2048x64) hz4]

/-- First tile of a head: the second carried buffer ends at the head's value block. -/
theorem vals_first (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x1x512x64 .f32) (x1 : Vec F S1x1x2048x64 .f32) (x2 : Vec F S1x1x2048x64 .f32) :
    sout0_A_1 c i arg3 harg3 arg4 harg4 arg5 harg5 arg6 harg6 arg7 harg7 arg8 harg8 arg9 harg9 hc0 x0 x1 x2 = k0_pay3 x2 := by
  unfold sout0_A_1
  rw [View.read_writes_eq_canon _ _ _ (scover0_A_1 c i arg3 harg3 arg4 harg4 arg5 harg5 arg6 harg6 arg7 harg7 arg8 harg8 arg9 harg9 hc0 x0 x1 x2)]
  unfold kernelRun0_A
  dsimp only
  sl_unfold_words
  rw [View.canon_unit_zero hz2]
  simp only [View.readAt_eq_ld, harg5.read_unread, View.ld_unit_zero (S := S1x1x2048x64) hz4]

/-- First tile of a head: the weights block is the softmax payload of the query tile and the signed keys just stored. -/
theorem weights_first (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x1x512x64 .f32) (x1 : Vec F S1x1x2048x64 .f32) (x2 : Vec F S1x1x2048x64 .f32) :
    out0_A_4 c i arg3 harg3 arg4 harg4 arg5 harg5 arg6 harg6 arg7 harg7 arg8 harg8 arg9 harg9 hc0 x0 x1 x2 = k0_pay5 x0 (k0_pay2 x1) := by
  unfold out0_A_4
  rw [View.read_writes_eq_canon _ _ _ (cover0_A_4 c i arg3 harg3 arg4 harg4 arg5 harg5 arg6 harg6 arg7 harg7 arg8 harg8 arg9 harg9 hc0 x0 x1 x2)]
  unfold kernelRun0_A
  dsimp only
  sl_unfold_words
  rw [View.canon_unit_zero hz4, View.readCov_unit_zero (S := S2048x64) _ hz2]
  simp only [View.readAt_eq_ld, harg3.read_unread, harg4.read_unread, View.ld_unit_zero (S := S1x1x512x64) hz4,
    View.ld_unit_zero (S := S1x1x2048x64) hz4]

/-- First tile of a head: the attended block is the product payload over the buffers just stored. -/
theorem attended_first (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x1x512x64 .f32) (x1 : Vec F S1x1x2048x64 .f32) (x2 : Vec F S1x1x2048x64 .f32) :
    out0_A_3 c i arg3 harg3 arg4 harg4 arg5 harg5 arg6 harg6 arg7 harg7 arg8 harg8 arg9 harg9 hc0 x0 x1 x2 = k0_pay1 (k0_pay6 x0 (k0_pay2 x1) (k0_pay3 x2)) := by
  unfold out0_A_3
  rw [View.read_writes_eq_canon _ _ _ (cover0_A_3 c i arg3 harg3 arg4 harg4 arg5 harg5 arg6 harg6 arg7 harg7 arg8 harg8 arg9 harg9 hc0 x0 x1 x2)]
  unfold kernelRun0_A
  dsimp only
  sl_unfold_words
  rw [View.canon_unit_zero hz4, View.readCov_unit_zero (S := S2048x64) _ hz2, View.readCov_unit_zero (S := S2048x64) _ hz2]
  simp only [View.readAt_eq_ld, harg3.read_unread, harg4.read_unread, harg5.read_unread, View.ld_unit_zero (S := S1x1x512x64) hz4,
    View.ld_unit_zero (S := S1x1x2048x64) hz4]

/-- A later tile of a head: the weights block is the softmax payload of the query tile and the carried signed keys. -/
theorem weights_later (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : ¬cond0_0 i) (x0 : Vec F S1x1x512x64 .f32) (x1 : Vec F S1x1x2048x64 .f32) (x2 : Vec F S1x1x2048x64 .f32) (xs0 : Vec F S2048x64 .bf16) (xs1 : Vec F S2048x64 .bf16) :
    out0_B_4 c i arg3 harg3 arg4 harg4 arg5 harg5 arg6 harg6 arg7 harg7 arg8 harg8 arg9 harg9 hc0 x0 x1 x2 xs0 xs1 = k0_pay5 x0 xs0 := by
  unfold out0_B_4
  rw [View.read_writes_eq_canon _ _ _ (cover0_B_4 c i arg3 harg3 arg4 harg4 arg5 harg5 arg6 harg6 arg7 harg7 arg8 harg8 arg9 harg9 hc0 x0 x1 x2 xs0 xs1)]
  unfold kernelRun0_B
  dsimp only
  sl_unfold_words
  rw [View.canon_unit_zero hz4]
  simp only [View.readAt_eq_ld, harg3.read_unread, harg8.read_unread, View.ld_unit_zero (S := S1x1x512x64) hz4,
    View.ld_unit_zero (S := S2048x64) hz2]

/-- A later tile of a head: the attended block is the product payload over the carried buffers. -/
theorem attended_later (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : ¬cond0_0 i) (x0 : Vec F S1x1x512x64 .f32) (x1 : Vec F S1x1x2048x64 .f32) (x2 : Vec F S1x1x2048x64 .f32) (xs0 : Vec F S2048x64 .bf16) (xs1 : Vec F S2048x64 .bf16) :
    out0_B_3 c i arg3 harg3 arg4 harg4 arg5 harg5 arg6 harg6 arg7 harg7 arg8 harg8 arg9 harg9 hc0 x0 x1 x2 xs0 xs1 = k0_pay1 (k0_pay6 x0 xs0 xs1) := by
  unfold out0_B_3
  rw [View.read_writes_eq_canon _ _ _ (cover0_B_3 c i arg3 harg3 arg4 harg4 arg5 harg5 arg6 harg6 arg7 harg7 arg8 harg8 arg9 harg9 hc0 x0 x1 x2 xs0 xs1)]
  unfold kernelRun0_B
  dsimp only
  sl_unfold_words
  rw [View.canon_unit_zero hz4]
  simp only [View.readAt_eq_ld, harg3.read_unread, harg8.read_unread, harg9.read_unread, View.ld_unit_zero (S := S1x1x512x64) hz4,
    View.ld_unit_zero (S := S2048x64) hz2]

end Cert.KernelIdeal.Pieces

end
-- ==== Proof.Carried.lean ====
/-
  The grid, point by point.

  The grid has 4·8·4 = 128 points in row-major order: point `t` works on batch `t / 32`, head `(t / 4) % 8`
  and query tile `t % 4` (rows `512·(t % 4) …` of the head). Call `t / 4` the point's HEAD NUMBER, 0 … 31.
  The key and value windows ignore the tile index, so a head's four points see the same key and value blocks.
  The body fills its two carried buffers at a head's first point only; by induction on the point, after every
  point they hold the signed keys and the values of THAT point's head. Hence every point — first of its head
  or not — leaves the same two functions of its query tile and its head's key and value blocks.
-/
import proofs.«177471_j6932077216007_2_alg».proof.Proof.Gen.KernelIdeal.Value
import Idealize.ShloMosaic.Lib.Pipeline.Value
import Idealize.ShloMosaic.Lib.Tactic
import Idealize.ShloMosaic.Lib.ValueIdx
import proofs.«177471_j6932077216007_2_alg».proof.Proof.Pieces

set_option maxRecDepth 16384

noncomputable section

open Idealize.ShloMosaic Idealize.ShloMosaic.TcCoe Idealize.SL.Sem
open Idealize.ShloMosaic.Pipeline (Dat)

namespace Cert.KernelIdeal.Carried
open Cert.KernelIdeal Cert.KernelIdeal.Gen Cert.KernelIdeal.Pieces Idealize.ShloMosaic.ValueIdx

variable {F : FTy → Type} [FloatOps F]
variable (m : (ℓ : Loc nD τ sig) → Buf (Elt F) ℓ)

theorem N128 : cfg0.N = 128 := N_0

/-- The printed index maps at every point: batch, head, tile, 0 for the query window and both results;
    batch, head, 0, 0 for the key and value windows. -/
theorem idx_facts : ∀ t : Fin cfg0.N,
    (win0_0.index t (0 : Fin 4) = t.val / 32 ∧ win0_0.index t (1 : Fin 4) = t.val / 4 % 8
      ∧ win0_0.index t (2 : Fin 4) = t.val % 4 ∧ win0_0.index t (3 : Fin 4) = 0)
    ∧ (win0_1.index t (0 : Fin 4) = t.val / 32 ∧ win0_1.index t (1 : Fin 4) = t.val / 4 % 8
      ∧ win0_1.index t (2 : Fin 4) = 0 ∧ win0_1.index t (3 : Fin 4) = 0)
    ∧ (win0_2.index t (0 : Fin 4) = t.val / 32 ∧ win0_2.index t (1 : Fin 4) = t.val / 4 % 8
      ∧ win0_2.index t (2 : Fin 4) = 0 ∧ win0_2.index t (3 : Fin 4) = 0)
    ∧ (win0_3.index t (0 : Fin 4) = t.val / 32 ∧ win0_3.index t (1 : Fin 4) = t.val / 4 % 8
      ∧ win0_3.index t (2 : Fin 4) = t.val % 4 ∧ win0_3.index t (3 : Fin 4) = 0)
    ∧ (win0_4.index t (0 : Fin 4) = t.val / 32 ∧ win0_4.index t (1 : Fin 4) = t.val / 4 % 8
      ∧ win0_4.index t (2 : Fin 4) = t.val % 4 ∧ win0_4.index t (3 : Fin 4) = 0) :=
  (by decide +kernel : ∀ t : Fin grid0.N, _)

/-- A point's head number. -/
def head (t : Fin cfg0.N) : Fin 32 := ⟨t.val / 4, by have := t.isLt; have := N128; omega⟩

/-- Head `g`'s key block, by coordinates. -/
def keyBlk (c : Dev nD) (g : Fin 32) : Vec F S1x1x2048x64 .f32 := fun y =>
  m ((c : Thread nD τ).loc main_arg1)
    (ix4 (⟨g.val / 8, by have := g.isLt; omega⟩ : Fin 4) (⟨g.val % 8, Nat.mod_lt _ (by decide)⟩ : Fin 8)
      (⟨(y 2).val, (y 2).isLt⟩ : Fin 2048) (⟨(y 3).val, (y 3).isLt⟩ : Fin 64))

/-- Head `g`'s value block, by coordinates. -/
def valBlk (c : Dev nD) (g : Fin 32) : Vec F S1x1x2048x64 .f32 := fun y =>
  m ((c : Thread nD τ).loc main_arg2)
    (ix4 (⟨g.val / 8, by have := g.isLt; omega⟩ : Fin 4) (⟨g.val % 8, Nat.mod_lt _ (by decide)⟩ : Fin 8)
      (⟨(y 2).val, (y 2).isLt⟩ : Fin 2048) (⟨(y 3).val, (y 3).isLt⟩ : Fin 64))

/-- Point `t`'s query tile, by coordinates. -/
def qryBlk (c : Dev nD) (t : Fin cfg0.N) : Vec F S1x1x512x64 .f32 := fun y =>
  m ((c : Thread nD τ).loc main_arg0)
    (ix4 (⟨t.val / 4 / 8, by have := t.isLt; have := N128; omega⟩ : Fin 4) (⟨t.val / 4 % 8, Nat.mod_lt _ (by decide)⟩ : Fin 8)
      (⟨t.val % 4 * 512 + (y 2).val, by have := (y 2).isLt; have : (y 2).val < 512 := this; omega⟩ : Fin 2048)
      (⟨(y 3).val, (y 3).isLt⟩ : Fin 64))

/-- The key window's block at `t` is its head's key block. -/
theorem iblk1_eq (c : Dev nD) (t : Fin cfg0.N) : (iblk m c 1 t : Vec F S1x1x2048x64 .f32) = keyBlk m c (head t) := by
  obtain ⟨-, ⟨e0, e1, e2, e3⟩, -, -, -⟩ := idx_facts t
  funext y
  unfold iblk keyBlk
  rw [View.read_apply]
  show V m c main_arg1 _ = m (c.tc.loc main_arg1) _
  unfold V
  congr 1
  funext a
  apply Fin.ext
  have y0 : (y 0).val < 1 := (y 0).isLt
  have y1 : (y 1).val < 1 := (y 1).isLt
  have ht : t.val < 128 := lt_of_lt_of_eq t.isLt N128
  match a with
  | ⟨0, _⟩ => show win0_1.index t (0 : Fin 4) * 1 + 1 * (y 0).val = (head t).val / 8; rw [e0]; show _ = t.val / 4 / 8; omega
  | ⟨1, _⟩ => show win0_1.index t (1 : Fin 4) * 1 + 1 * (y 1).val = (head t).val % 8; rw [e1]; show _ = t.val / 4 % 8; omega
  | ⟨2, _⟩ => show win0_1.index t (2 : Fin 4) * 2048 + 1 * (y 2).val = (y 2).val; rw [e2]; omega
  | ⟨3, _⟩ => show win0_1.index t (3 : Fin 4) * 64 + 1 * (y 3).val = (y 3).val; rw [e3]; omega

/-- The value window's block at `t` is its head's value block. -/
theorem iblk2_eq (c : Dev nD) (t : Fin cfg0.N) : (iblk m c 2 t : Vec F S1x1x2048x64 .f32) = valBlk m c (head t) := by
  obtain ⟨-, -, ⟨e0, e1, e2, e3⟩, -, -⟩ := idx_facts t
  funext y
  unfold iblk valBlk
  rw [View.read_apply]
  show V m c main_arg2 _ = m (c.tc.loc main_arg2) _
  unfold V
  congr 1
  funext a
  apply Fin.ext
  have y0 : (y 0).val < 1 := (y 0).isLt
  have y1 : (y 1).val < 1 := (y 1).isLt
  have ht : t.val < 128 := lt_of_lt_of_eq t.isLt N128
  match a with
  | ⟨0, _⟩ => show win0_2.index t (0 : Fin 4) * 1 + 1 * (y 0).val = (head t).val / 8; rw [e0]; show _ = t.val / 4 / 8; omega
  | ⟨1, _⟩ => show win0_2.index t (1 : Fin 4) * 1 + 1 * (y 1).val = (head t).val % 8; rw [e1]; show _ = t.val / 4 % 8; omega
  | ⟨2, _⟩ => show win0_2.index t (2 : Fin 4) * 2048 + 1 * (y 2).val = (y 2).val; rw [e2]; omega
  | ⟨3, _⟩ => show win0_2.index t (3 : Fin 4) * 64 + 1 * (y 3).val = (y 3).val; rw [e3]; omega

/-- The query window's block at `t` is the point's query tile. -/
theorem iblk0_eq (c : Dev nD) (t : Fin cfg0.N) : (iblk m c 0 t : Vec F S1x1x512x64 .f32) = qryBlk m c t := by
  obtain ⟨⟨e0, e1, e2, e3⟩, -, -, -, -⟩ := idx_facts t
  funext y
  unfold iblk qryBlk
  rw [View.read_apply]
  show V m c main_arg0 _ = m (c.tc.loc main_arg0) _
  unfold V
  congr 1
  funext a
  apply Fin.ext
  have y0 : (y 0).val < 1 := (y 0).isLt
  have y1 : (y 1).val < 1 := (y 1).isLt
  match a with
  | ⟨0, _⟩ => show win0_0.index t (0 : Fin 4) * 1 + 1 * (y 0).val = t.val / 4 / 8; rw [e0]; omega
  | ⟨1, _⟩ => show win0_0.index t (1 : Fin 4) * 1 + 1 * (y 1).val = t.val / 4 % 8; rw [e1]; omega
  | ⟨2, _⟩ => show win0_0.index t (2 : Fin 4) * 512 + 1 * (y 2).val = t.val % 4 * 512 + (y 2).val; rw [e2]; omega
  | ⟨3, _⟩ => show win0_0.index t (3 : Fin 4) * 64 + 1 * (y 3).val = (y 3).val; rw [e3]; omega

/-- THE INVARIANT: after point `n` the carried buffers hold the signed keys and the values of `n`'s head. -/
theorem carried (c : Dev nD) : ∀ (n : ℕ) (h : n < cfg0.N),
    (outsAt0 m c n h).2.2.1 = k0_pay2 (keyBlk m c (head ⟨n, h⟩))
    ∧ (outsAt0 m c n h).2.2.2 = k0_pay3 (valBlk m c (head ⟨n, h⟩))
  | 0, h => by
    rw [outsAt0_A m c ⟨0, h⟩ rfl]
    dsimp only
    rw [keys_first, vals_first, iblk1_eq, iblk2_eq]
    exact ⟨rfl, rfl⟩
  | n + 1, h => by
    by_cases h0 : (n + 1) % 4 = 0
    · rw [outsAt0_A m c ⟨n + 1, h⟩ h0]
      dsimp only
      rw [keys_first, vals_first, iblk1_eq, iblk2_eq]
      exact ⟨rfl, rfl⟩
    · rw [outsAt0_B m c ⟨n + 1, h⟩ h0]
      dsimp only
      unfold sout0_B_0 sout0_B_1
      have ih := carried c n (Nat.lt_of_succ_lt h)
      have hh : head ⟨n, Nat.lt_of_succ_lt h⟩ = head ⟨n + 1, h⟩ := Fin.ext (by show n / 4 = (n + 1) / 4; omega)
      rw [hh] at ih
      exact ih

/-- What EVERY point leaves in the weights window: the softmax payload of its query tile and its head's signed keys. -/
theorem weights_at (c : Dev nD) (t : Fin cfg0.N) :
    (outsAt0 m c t.val t.isLt).2.1 = k0_pay5 (qryBlk m c t) (k0_pay2 (keyBlk m c (head t))) := by
  by_cases h0 : t.val % 4 = 0
  · rw [outsAt0_A m c t h0]
    dsimp only
    rw [weights_first, iblk0_eq, iblk1_eq]
  · rw [outsAt0_B m c t h0]
    dsimp only
    rw [weights_later, iblk0_eq]
    have ht : t.val < 128 := lt_of_lt_of_eq t.isLt N128
    have hp : t.val - 1 < cfg0.N := Nat.lt_of_le_of_lt (Nat.sub_le _ _) t.isLt
    have ih := (carried m c (t.val - 1) hp).1
    have hh : head ⟨t.val - 1, hp⟩ = head t := Fin.ext (by show (t.val - 1) / 4 = t.val / 4; omega)
    rw [hh] at ih
    rw [ih]

/-- What EVERY point leaves in the attended window: the product payload over its head's signed keys and values. -/
theorem attended_at (c : Dev nD) (t : Fin cfg0.N) :
    (outsAt0 m c t.val t.isLt).1
      = k0_pay1 (k0_pay6 (qryBlk m c t) (k0_pay2 (keyBlk m c (head t))) (k0_pay3 (valBlk m c (head t)))) := by
  by_cases h0 : t.val % 4 = 0
  · rw [outsAt0_A m c t h0]
    dsimp only
    rw [attended_first, iblk0_eq, iblk1_eq, iblk2_eq]
  · rw [outsAt0_B m c t h0]
    dsimp only
    rw [attended_later, iblk0_eq]
    have ht : t.val < 128 := lt_of_lt_of_eq t.isLt N128
    have hp : t.val - 1 < cfg0.N := Nat.lt_of_le_of_lt (Nat.sub_le _ _) t.isLt
    have ih := carried m c (t.val - 1) hp
    have hh : head ⟨t.val - 1, hp⟩ = head t := Fin.ext (by show (t.val - 1) / 4 = t.val / 4; omega)
    rw [hh] at ih
    rw [ih.1, ih.2]

end Cert.KernelIdeal.Carried

end
-- ==== Proof.Spec.lean ====
/-
  The function both programs are compared against, over the extended reals and index by index.

  For arrays `Q K V` of shape [4, 8, 2048, 64] (batch, head, position, feature):
    a(x)            = 2·x − 1
    sim[b,h,n,m]    = Σ_d a(Q[b,h,n,d]) · a(K[b,h,m,d])
    logit[b,h,n,m]  = sim[b,h,n,m] · 2⁻⁷
    rowMax[b,h,n]   = max over m of logit[b,h,n,m]   (a fold of max from −∞)
    num[b,h,n,m]    = exp (logit[b,h,n,m] − rowMax[b,h,n])
    den[b,h,n]      = Σ_m num[b,h,n,m]
    score[b,h,n,m]  = num[b,h,n,m] / den[b,h,n]
    out[b,h,n,d]    = Σ_m score[b,h,n,m] · V[b,h,m,d]
  The constants are kept as the float words the programs print; nothing here evaluates them.
-/
import Idealize.ShloMosaic.PureOps.Ideal
import Idealize.ShloMosaic.Lib.ValueIdx

noncomputable section

namespace Cert.Attn

open Idealize.ShloMosaic Idealize.ShloMosaic.ValueIdx

/-- The shape of each argument and of the first result. -/
abbrev SQ : Shape := ⟨4, ![4, 8, 2048, 64]⟩
/-- The shape of the attention weights, the second result. -/
abbrev SS : Shape := ⟨4, ![4, 8, 2048, 2048]⟩

/-- The words the programs print: 2, 1, 2⁻⁷, −∞. -/
abbrev wTwo : EReal := Ideal.ofBits .f32 0x40000000#32
abbrev wOne : EReal := Ideal.ofBits .f32 0x3F800000#32
abbrev wScale : EReal := Ideal.ofBits .f32 0x3C000000#32
abbrev wNegInf : EReal := Ideal.ofBits .f32 0xFF800000#32

/-- The map from a bit in [0, 1] to a sign in [−1, 1]: 2·x − 1. -/
def aff (x : EReal) : EReal := wTwo * x - wOne

/-- The similarity of query position `n` and key position `m` in head (b, h). -/
def sim (Q K : SQ.Idx → EReal) (b : Fin 4) (h : Fin 8) (n m : Fin 2048) : EReal :=
  ∑ d : Fin 64, aff (Q (ix4 b h n d)) * aff (K (ix4 b h m d))

/-- The scaled similarity. -/
def logit (Q K : SQ.Idx → EReal) (b : Fin 4) (h : Fin 8) (n m : Fin 2048) : EReal :=
  sim Q K b h n m * wScale

/-- The largest scaled similarity of query position `n`. -/
def rowMax (Q K : SQ.Idx → EReal) (b : Fin 4) (h : Fin 8) (n : Fin 2048) : EReal :=
  (Finset.univ : Finset (Fin 2048)).fold max wNegInf (fun m => logit Q K b h n m)

/-- The shifted exponential. -/
def num (Q K : SQ.Idx → EReal) (b : Fin 4) (h : Fin 8) (n m : Fin 2048) : EReal :=
  Ideal.exp (logit Q K b h n m - rowMax Q K b h n)

/-- The normaliser of query position `n`. -/
def den (Q K : SQ.Idx → EReal) (b : Fin 4) (h : Fin 8) (n : Fin 2048) : EReal :=
  ∑ m : Fin 2048, num Q K b h n m

/-- The attention weights. -/
def score (Q K : SQ.Idx → EReal) : SS.Idx → EReal := fun i =>
  Ideal.div (num Q K (i 0) (i 1) (i 2) (i 3)) (den Q K (i 0) (i 1) (i 2))

/-- The attended values. -/
def out (Q K V : SQ.Idx → EReal) : SQ.Idx → EReal := fun i =>
  ∑ m : Fin 2048, score Q K (ix4 (i 0) (i 1) (i 2) m) * V (ix4 (i 0) (i 1) m (i 3))

end Cert.Attn

end
-- ==== Proof.SpecRows.lean ====
/-
  The specification, one query row at a time.

  A row of the attention weights depends on one query vector `q : Fin 64 → EReal` and on the head's signed
  keys `ks m d` (= 2·k − 1 of key position `m`, feature `d`); a row of the attended values also on the head's
  values `vs m d`. Written this way the same functions describe a 512-row tile of the kernel (its query rows,
  the signed keys and the values it keeps in its carried buffers) and the whole arrays of the reference.
-/
import proofs.«177471_j6932077216007_2_alg».proof.Proof.Spec

noncomputable section

namespace Cert.Attn

open Idealize.ShloMosaic Idealize.ShloMosaic.ValueIdx

/-- Similarity of the query row with key position `m`. -/
def rowSim (q : Fin 64 → EReal) (ks : Fin 2048 → Fin 64 → EReal) (m : Fin 2048) : EReal :=
  ∑ d : Fin 64, aff (q d) * ks m d

/-- Scaled similarity. -/
def rowLogit (q : Fin 64 → EReal) (ks : Fin 2048 → Fin 64 → EReal) (m : Fin 2048) : EReal :=
  rowSim q ks m * wScale

/-- The row's largest scaled similarity. -/
def rowTop (q : Fin 64 → EReal) (ks : Fin 2048 → Fin 64 → EReal) : EReal :=
  (Finset.univ : Finset (Fin 2048)).fold max wNegInf (fun m => rowLogit q ks m)

/-- Shifted exponential. -/
def rowNum (q : Fin 64 → EReal) (ks : Fin 2048 → Fin 64 → EReal) (m : Fin 2048) : EReal :=
  Ideal.exp (rowLogit q ks m - rowTop q ks)

/-- The row's normaliser. -/
def rowDen (q : Fin 64 → EReal) (ks : Fin 2048 → Fin 64 → EReal) : EReal :=
  ∑ m : Fin 2048, rowNum q ks m

/-- The row of attention weights. -/
def rowScore (q : Fin 64 → EReal) (ks : Fin 2048 → Fin 64 → EReal) (m : Fin 2048) : EReal :=
  Ideal.div (rowNum q ks m) (rowDen q ks)

/-- The row of attended values at feature `d`. -/
def rowOut (q : Fin 64 → EReal) (ks vs : Fin 2048 → Fin 64 → EReal) (d : Fin 64) : EReal :=
  ∑ m : Fin 2048, rowScore q ks m * vs m d

/-- The whole-array weights are the row weights of each (batch, head, position). -/
theorem score_row (Q K : SQ.Idx → EReal) (b : Fin 4) (h : Fin 8) (n m : Fin 2048) :
    score Q K (ix4 b h n m)
      = rowScore (fun d => Q (ix4 b h n d)) (fun m' d => aff (K (ix4 b h m' d))) m := rfl

/-- The whole-array attended values are the row's. -/
theorem out_row (Q K V : SQ.Idx → EReal) (b : Fin 4) (h : Fin 8) (n : Fin 2048) (d : Fin 64) :
    out Q K V (ix4 b h n d)
      = rowOut (fun d' => Q (ix4 b h n d')) (fun m' d' => aff (K (ix4 b h m' d'))) (fun m' d' => V (ix4 b h m' d')) d := rfl

end Cert.Attn

end
-- ==== Proof.Payload.lean ====
/-
  The kernel body's arithmetic read at an index, over the extended reals (every operation exact, a format change the
  identity).

  For a query tile `q` of 512 rows and 64 features, the carried signed keys `ks` (2048 positions × 64 features) and
  values `vs` (2048 × 64):
    signed keys[m, d]   = 2 · k[m, d] − 1                         (`signedKeys_apply`)
    values[m, d]        = v[m, d]                                 (`vals_apply`)
    sim[r, m]           = Σ_d (2 · q[r, d] − 1) · ks[m, d]        (`sim_apply`, `signedQ_apply`)
    logit[r, m]         = sim[r, m] · 2⁻⁷                         (`logits_apply`)
    top[r]              = max over m of logit[r, m], from −∞      (`rowMax_apply`)
    num[r, m]           = exp (logit[r, m] − top[r])              (`nums_apply`)
    den[r]              = Σ_m num[r, m]                           (`rowSum_apply`)
    weights[r, m]       = num[r, m] / den[r]                      (`pay4_apply`, `weights_apply`)
    attended[r, d]      = Σ_m weights[r, m] · vs[m, d]            (`out_apply`, `attended_apply`)
  Each line is the row specification's function of the same name (`rowSim` … `rowOut`) at the query row
  `d ↦ q[r, d]`. The layout steps in between only move an entry: a cast between `[1, 1, a, b]` and `[a, b]` keeps the
  row-major position `i · b + j`; a per-row value cast to a column and broadcast along the row is read back at its row.
-/
import proofs.«177471_j6932077216007_2_alg».proof.Proof.Gen.KernelIdeal.Skeleton
import proofs.«177471_j6932077216007_2_alg».proof.Proof.SpecRows
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Payload

open Cert.KernelIdeal Cert.KernelIdeal.Gen Cert.Attn Idealize.ShloMosaic Idealize.ShloMosaic.ValueIdx

/-! ## Layout: the casts and the broadcast the body uses, read at coordinates -/

section Layout
variable {α : Type}

/-- A `[1, 1, a, b]` array cast to `[a, b]` reads, at `(i, j)`, the operand at `(0, 0, i, j)`: both have row-major
    position `i · b + j`. -/
theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem cast_ab_11ab {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector `[a]` cast to the column `[a, 1]` reads, at `(i, u)`, the vector at `i`. -/
theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem bcast_a1_ab {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The carried buffers: signed keys and values -/

/-- The signed keys at `(m, d)`: `2 · k − 1` of the key block's entry; the format change is the identity. -/
theorem signedKeys_apply (xk : Vec Ideal S1x1x2048x64 .f32) (m : Fin 2048) (d : Fin 64) :
    k0_pay2 (F := Ideal) xk (ix2 m d) = aff (xk (ix4 (0 : Fin 1) (0 : Fin 1) m d)) := by
  unfold k0_pay2
  rw [shapeCast_self]
  show wTwo * shapeCast S2048x64 xk shapeCasts_S1x1x2048x64_S2048x64 (ix2 m d) - wOne = _
  rw [cast_11ab_ab]
  rfl

/-- The values at `(m, d)`: the value block's entry. -/
theorem vals_apply (xv : Vec Ideal S1x1x2048x64 .f32) (m : Fin 2048) (d : Fin 64) :
    k0_pay3 (F := Ideal) xv (ix2 m d) = xv (ix4 (0 : Fin 1) (0 : Fin 1) m d) := by
  unfold k0_pay3
  rw [shapeCast_self]
  show shapeCast S2048x64 xv shapeCasts_S1x1x2048x64_S2048x64 (ix2 m d) = _
  rw [cast_11ab_ab]

/-! ## The first product: similarities -/

/-- The first product keeps the left operand's row: its left index at output `(r, m)` has first coordinate `r`. -/
theorem simLhs_0 (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl

/-- Its second coordinate is the contraction position. -/
theorem simLhs_1 (j : S512x2048.Idx) (q : dot_S512x64_S2048x64_S512x2048_1_1_0_0_n_n.contr.Idx) :
    (dot_S512x64_S2048x64_S512x2048_1_1_0_0_n_n.lhsIdx j q 1).val = (q ⟨0, by decide⟩).val :=
  dot_S512x64_S2048x64_S512x2048_1_1_0_0_n_n.lhsIdx_val_of_single rfl j q

/-- The right operand is read at the row the output's column names … -/
theorem simRhs_0 (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

/-- … at the contraction position. -/
theorem simRhs_1 (j : S512x2048.Idx) (q : dot_S512x64_S2048x64_S512x2048_1_1_0_0_n_n.contr.Idx) :
    (dot_S512x64_S2048x64_S512x2048_1_1_0_0_n_n.rhsIdx j q 1).val = (q ⟨0, by decide⟩).val :=
  dot_S512x64_S2048x64_S512x2048_1_1_0_0_n_n.rhsIdx_val_of_single rfl j q

/-- The first product at `(r, m)`: the sum over the 64 features of the left row `r` times the right row `m`
    (both operands are contracted along their second axis, so the right one enters transposed). -/
theorem sim_apply (a : FVec Ideal S512x64 .bf16) (b : FVec Ideal S2048x64 .bf16) (r : Fin 512) (m : Fin 2048) :
    matmul (F := Ideal) dot_S512x64_S2048x64_S512x2048_1_1_0_0_n_n none a b (constant S512x2048 .f32 0x00000000#32) (ix2 r m)
      = ∑ d : Fin 64, a (ix2 r d) * b (ix2 m d) := by
  show FloatOps.matmul dot_S512x64_S2048x64_S512x2048_1_1_0_0_n_n none a b (constant S512x2048 .f32 0x00000000#32) (ix2 r m) = _
  rw [Ideal.matmul_constant_zero_apply,
    ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r m)
      ((contrEquiv1 dot_S512x64_S2048x64_S512x2048_1_1_0_0_n_n 64 rfl rfl).symm k) = ix2 r k :=
    funext fun c => Fin.ext (by
      match c with
      | ⟨0, _⟩ => exact simLhs_0 _ _
      | ⟨1, _⟩ => exact (simLhs_1 _ _).trans hk)
  have er : dot_S512x64_S2048x64_S512x2048_1_1_0_0_n_n.rhsIdx (ix2 r m)
      ((contrEquiv1 dot_S512x64_S2048x64_S512x2048_1_1_0_0_n_n 64 rfl rfl).symm k) = ix2 m k :=
    funext fun c => Fin.ext (by
      match c with
      | ⟨0, _⟩ => exact simRhs_0 _ _
      | ⟨1, _⟩ => exact (simRhs_1 _ _).trans hk)
  rw [el, er]

/-! ## A row's reductions -/

/-- The row index `r` with the column `k` put back is `(r, k)`. -/
theorem lift_row (h : S512x2048.Reduces [1] S512) (r : Fin 512) (k : Fin (S512x2048.size 1)) :
    h.lift (ix1 r) k = ix2 r (⟨k.val, k.isLt⟩ : Fin 2048) := by
  funext c; apply Fin.ext
  match c with
  | ⟨0, _⟩ => rfl
  | ⟨1, _⟩ => rfl

/-- The row maximum from −∞, at row `r`: the fold of `max` over the row's 2048 entries. -/
theorem rowMax_apply (src : FVec Ideal S512x2048 .f32) (r : Fin 512) :
    multiReduction (F := Ideal) .maximumf [1] S512 src 0xFF800000#32 reduces_S512x2048_S512 (.inl rfl) rfl (ix1 r)
      = (Finset.univ : Finset (Fin 2048)).fold max wNegInf (fun m => src (ix2 r m)) := by
  refine (Ideal.multiReduction_maximumf_single src 0xFF800000#32 reduces_S512x2048_S512 (.inl rfl) rfl (ix1 r)).trans ?_
  exact congrArg (fun f => Finset.fold max wNegInf f (Finset.univ : Finset (Fin 2048)))
    (funext fun k => congrArg src (lift_row reduces_S512x2048_S512 r k))

/-- The row sum from 0, at row `r`: the sum of the row's 2048 entries. -/
theorem rowSum_apply (src : FVec Ideal S512x2048 .f32) (r : Fin 512) :
    multiReduction (F := Ideal) .add [1] S512 src 0x00000000#32 reduces_S512x2048_S512 (.inl rfl) rfl (ix1 r)
      = ∑ m : Fin 2048, src (ix2 r m) := by
  refine (Ideal.multiReduction_add_single src 0x00000000#32 reduces_S512x2048_S512 (.inl rfl) rfl (ix1 r)).trans ?_
  exact Finset.sum_congr rfl fun k _ => congrArg src (lift_row reduces_S512x2048_S512 r k)

/-- A per-row value, cast to a column and broadcast along the rows' 2048 entries, reads at `(r, m)` the value of row `r`. -/
theorem keepdims_apply (v : FVec Ideal S512 .f32) (r : Fin 512) (m : Fin 2048) :
    broadcastTo S512x2048 (shapeCast S512x1 v shapeCasts_S512_S512x1) broadcasts_S512x1_S512x2048 (ix2 r m) = v (ix1 r) :=
  (bcast_a1_ab _ _ r m).trans (cast_a_a1 v _ r 0)

/-! ## The tile's weights, stage by stage -/

/-- The query tile's signed rows `2 · q − 1`, as the body forms them. -/
def signedQ (xq : Vec Ideal S1x1x512x64 .f32) : FVec Ideal S512x64 .bf16 :=
  truncf .bf16
    (subf (mulf (broadcast S512x64 (Scalar.ofBits (F := Ideal) .f32 0x40000000#32))
        (shapeCast S512x64 xq shapeCasts_S1x1x512x64_S512x64))
      (broadcast S512x64 (Scalar.ofBits (F := Ideal) .f32 0x3F800000#32))) bitsLt_bf16_f32

/-- At `(r, d)`: `2 · q − 1` of the tile's entry. -/
theorem signedQ_apply (xq : Vec Ideal S1x1x512x64 .f32) (r : Fin 512) (d : Fin 64) :
    signedQ xq (ix2 r d) = aff (xq (ix4 (0 : Fin 1) (0 : Fin 1) r d)) := by
  show wTwo * shapeCast S512x64 xq shapeCasts_S1x1x512x64_S512x64 (ix2 r d) - wOne = _
  rw [cast_11ab_ab]
  rfl

/-- The tile's scaled similarities: the first product times 2⁻⁷. -/
def logits (xq : Vec Ideal S1x1x512x64 .f32) (ks : Vec Ideal S2048x64 .bf16) : FVec Ideal S512x2048 .f32 :=
  mulf (matmul (φ₁ := .bf16) (φ₂ := .bf16) dot_S512x64_S2048x64_S512x2048_1_1_0_0_n_n none (signedQ xq) ks
      (constant S512x2048 .f32 0x00000000#32))
    (broadcast S512x2048 (Scalar.ofBits (F := Ideal) .f32 0x3C000000#32))

/-- At `(r, m)`: the scaled similarity of query row `r` with key position `m`. -/
theorem logits_apply (xq : Vec Ideal S1x1x512x64 .f32) (ks : Vec Ideal S2048x64 .bf16) (r : Fin 512) (m : Fin 2048) :
    logits xq ks (ix2 r m)
      = rowLogit (fun d => xq (ix4 (0 : Fin 1) (0 : Fin 1) r d)) (fun m' d => ks (ix2 m' d)) m := by
  show matmul (F := Ideal) (φ₁ := .bf16) (φ₂ := .bf16) dot_S512x64_S2048x64_S512x2048_1_1_0_0_n_n none (signedQ xq) ks
      (constant S512x2048 .f32 0x00000000#32) (ix2 r m) * wScale = _
  rw [sim_apply]
  unfold rowLogit rowSim
  exact congrArg (· * wScale) (Finset.sum_congr rfl fun d _ => congrArg (· * ks (ix2 m d)) (signedQ_apply xq r d))

/-- The tile's shifted exponentials: `exp` of each scaled similarity less its row's maximum. -/
def nums (xq : Vec Ideal S1x1x512x64 .f32) (ks : Vec Ideal S2048x64 .bf16) : FVec Ideal S512x2048 .f32 :=
  exp (subf (logits xq ks)
    (broadcastTo S512x2048
      (shapeCast S512x1
        (multiReduction .maximumf [1] S512 (logits xq ks) 0xFF800000#32 reduces_S512x2048_S512 (.inl rfl) rfl)
        shapeCasts_S512_S512x1)
      broadcasts_S512x1_S512x2048))

/-- At `(r, m)`: the row's shifted exponential. -/
theorem nums_apply (xq : Vec Ideal S1x1x512x64 .f32) (ks : Vec Ideal S2048x64 .bf16) (r : Fin 512) (m : Fin 2048) :
    nums xq ks (ix2 r m)
      = rowNum (fun d => xq (ix4 (0 : Fin 1) (0 : Fin 1) r d)) (fun m' d => ks (ix2 m' d)) m := by
  show Ideal.exp (logits xq ks (ix2 r m) - broadcastTo S512x2048 _ broadcasts_S512x1_S512x2048 (ix2 r m)) = _
  rw [keepdims_apply, rowMax_apply, logits_apply]
  have hmax : (Finset.univ : Finset (Fin 2048)).fold max wNegInf (fun m' => logits xq ks (ix2 r m'))
      = (Finset.univ : Finset (Fin 2048)).fold max wNegInf
          (fun m' => rowLogit (fun d => xq (ix4 (0 : Fin 1) (0 : Fin 1) r d)) (fun m'' d => ks (ix2 m'' d)) m') :=
    congrArg (fun f => Finset.fold max wNegInf f (Finset.univ : Finset (Fin 2048)))
      (funext fun m' => logits_apply xq ks r m')
  rw [hmax]
  rfl

/-- The weights payload is the quotient of the shifted exponentials by their row sums. -/
theorem pay4_eq (xq : Vec Ideal S1x1x512x64 .f32) (ks : Vec Ideal S2048x64 .bf16) :
    k0_pay4 (F := Ideal) xq ks
      = divf (nums xq ks)
          (broadcastTo S512x2048
            (shapeCast S512x1
              (multiReduction .add [1] S512 (nums xq ks) 0x00000000#32 reduces_S512x2048_S512 (.inl rfl) rfl)
              shapeCasts_S512_S512x1)
            broadcasts_S512x1_S512x2048) := rfl

/-- At `(r, m)`: the row's weight of key position `m`. -/
theorem pay4_apply (xq : Vec Ideal S1x1x512x64 .f32) (ks : Vec Ideal S2048x64 .bf16) (r : Fin 512) (m : Fin 2048) :
    k0_pay4 (F := Ideal) xq ks (ix2 r m)
      = rowScore (fun d => xq (ix4 (0 : Fin 1) (0 : Fin 1) r d)) (fun m' d => ks (ix2 m' d)) m := by
  rw [pay4_eq]
  show Ideal.div (nums xq ks (ix2 r m)) (broadcastTo S512x2048 _ broadcasts_S512x1_S512x2048 (ix2 r m)) = _
  rw [keepdims_apply, rowSum_apply, nums_apply]
  unfold rowScore rowDen
  exact congrArg (Ideal.div _) (Finset.sum_congr rfl fun m' _ => nums_apply xq ks r m')

/-- The stored weights at `(0, 0, r, m)`: the row's weight of key position `m`. -/
theorem weights_apply (xq : Vec Ideal S1x1x512x64 .f32) (ks : Vec Ideal S2048x64 .bf16) (r : Fin 512) (m : Fin 2048) :
    k0_pay5 (F := Ideal) xq ks (ix4 (0 : Fin 1) (0 : Fin 1) r m)
      = rowScore (fun d => xq (ix4 (0 : Fin 1) (0 : Fin 1) r d)) (fun m' d => ks (ix2 m' d)) m :=
  (cast_ab_11ab (k0_pay4 (F := Ideal) xq ks) shapeCasts_S512x2048_S1x1x512x2048 0 0 r m).trans (pay4_apply xq ks r m)

/-! ## The second product: attended values -/

/-- The second product keeps the left operand's row … -/
theorem outLhs_0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl

/-- … and reads it at the contraction position. -/
theorem outLhs_1 (j : S512x64.Idx) (q : dot_S512x2048_S2048x64_S512x64_1_0_0_1_n_n.contr.Idx) :
    (dot_S512x2048_S2048x64_S512x64_1_0_0_1_n_n.lhsIdx j q 1).val = (q ⟨0, by decide⟩).val :=
  dot_S512x2048_S2048x64_S512x64_1_0_0_1_n_n.lhsIdx_val_of_single rfl j q

/-- The right operand is read at the contraction position's row … -/
theorem outRhs_0 (j : S512x64.Idx) (q : dot_S512x2048_S2048x64_S512x64_1_0_0_1_n_n.contr.Idx) :
    (dot_S512x2048_S2048x64_S512x64_1_0_0_1_n_n.rhsIdx j q 0).val = (q ⟨0, by decide⟩).val :=
  dot_S512x2048_S2048x64_S512x64_1_0_0_1_n_n.rhsIdx_val_of_single rfl j q

/-- … and the output's column. -/
theorem outRhs_1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The second product at `(r, d)`: the sum over the 2048 key positions of the left row `r` times the right column `d`. -/
theorem out_apply (a : FVec Ideal S512x2048 .bf16) (b : FVec Ideal S2048x64 .bf16) (r : Fin 512) (d : Fin 64) :
    matmul (F := Ideal) dot_S512x2048_S2048x64_S512x64_1_0_0_1_n_n none a b (constant S512x64 .f32 0x00000000#32) (ix2 r d)
      = ∑ m : Fin 2048, a (ix2 r m) * b (ix2 m d) := by
  show FloatOps.matmul dot_S512x2048_S2048x64_S512x64_1_0_0_1_n_n none a b (constant S512x64 .f32 0x00000000#32) (ix2 r d) = _
  rw [Ideal.matmul_constant_zero_apply,
    ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d)
      ((contrEquiv1 dot_S512x2048_S2048x64_S512x64_1_0_0_1_n_n 2048 rfl rfl).symm k) = ix2 r k :=
    funext fun c => Fin.ext (by
      match c with
      | ⟨0, _⟩ => exact outLhs_0 _ _
      | ⟨1, _⟩ => exact (outLhs_1 _ _).trans hk)
  have er : dot_S512x2048_S2048x64_S512x64_1_0_0_1_n_n.rhsIdx (ix2 r d)
      ((contrEquiv1 dot_S512x2048_S2048x64_S512x64_1_0_0_1_n_n 2048 rfl rfl).symm k) = ix2 k d :=
    funext fun c => Fin.ext (by
      match c with
      | ⟨0, _⟩ => exact (outRhs_0 _ _).trans hk
      | ⟨1, _⟩ => exact outRhs_1 _ _)
  rw [el, er]

/-- The stored result at `(0, 0, r, d)`: the row's weights applied to the values' feature `d`. -/
theorem attended_apply (xq : Vec Ideal S1x1x512x64 .f32) (ks vs : Vec Ideal S2048x64 .bf16) (r : Fin 512) (d : Fin 64) :
    k0_pay1 (F := Ideal) (k0_pay6 xq ks vs) (ix4 (0 : Fin 1) (0 : Fin 1) r d)
      = rowOut (fun d' => xq (ix4 (0 : Fin 1) (0 : Fin 1) r d')) (fun m' d' => ks (ix2 m' d'))
          (fun m' d' => vs (ix2 m' d')) d := by
  refine (cast_ab_11ab (k0_pay6 (F := Ideal) xq ks vs) shapeCasts_S512x64_S1x1x512x64 0 0 r d).trans ?_
  show matmul (F := Ideal) (φ₁ := .bf16) (φ₂ := .bf16) dot_S512x2048_S2048x64_S512x64_1_0_0_1_n_n none
      (truncf .bf16 (k0_pay4 (F := Ideal) xq ks) bitsLt_bf16_f32) vs (constant S512x64 .f32 0x00000000#32) (ix2 r d) = _
  rw [out_apply]
  unfold rowOut
  exact Finset.sum_congr rfl fun m _ => congrArg (· * vs (ix2 m d)) (pay4_apply xq ks r m)

end Cert.KernelIdeal.Payload

end
-- ==== Proof.Whole.lean ====
/-
  From blocks to whole arrays.

  Point `t` of the grid writes back one [512, 2048] block of the weights array and one [512, 64] block of the
  attended array: rows `512·(t % 4) … 512·(t % 4) + 511` of head `(t / 4 / 8, t / 4 % 8)`. Read at a row `r` of
  the block, what it writes is the row specification applied to query row `512·(t % 4) + r` of that head and to
  the head's signed keys and values — which is the whole-array specification read at that row. The 128 blocks
  tile each array (row `n` of head (b, h) lies in the block of point `(8·b + h)·4 + n / 512`), so after the run
  each result array IS the specification's function of the launch contents of the arguments.
-/
import proofs.«177471_j6932077216007_2_alg».proof.Proof.Gen.KernelIdeal.Value
import Idealize.ShloMosaic.Lib.Pipeline.Value
import Idealize.ShloMosaic.Lib.Tactic
import Idealize.ShloMosaic.Lib.ValueIdx
import proofs.«177471_j6932077216007_2_alg».proof.Proof.Carried
import proofs.«177471_j6932077216007_2_alg».proof.Proof.SpecRows
import proofs.«177471_j6932077216007_2_alg».proof.Proof.Payload

set_option maxRecDepth 16384

noncomputable section

open Idealize.ShloMosaic Idealize.ShloMosaic.TcCoe Idealize.SL.Sem
open Idealize.ShloMosaic.Pipeline (Dat)

namespace Cert.KernelIdeal.Whole
open Cert.KernelIdeal Cert.KernelIdeal.Gen Cert.KernelIdeal.Carried Cert.KernelIdeal.Payload Cert.Attn Idealize.ShloMosaic.ValueIdx

variable (m : (ℓ : Loc nD τ sig) → Buf (Elt Ideal) ℓ) (ρ : Dev nD → PrngReg)

/-- The weights the specification assigns to the launch contents of the first two arguments. -/
abbrev weights (c : Dev nD) : Buf (Elt Ideal) ((c : Thread nD τ).loc main_v0_1) :=
  score (m ((c : Thread nD τ).loc main_arg0)) (m ((c : Thread nD τ).loc main_arg1))

/-- The attended values the specification assigns to the launch contents of the three arguments. -/
abbrev attended (c : Dev nD) : Buf (Elt Ideal) ((c : Thread nD τ).loc main_v0_0) :=
  out (m ((c : Thread nD τ).loc main_arg0)) (m ((c : Thread nD τ).loc main_arg1)) (m ((c : Thread nD τ).loc main_arg2))

/-- The signed keys the carried buffer holds at `t`, read at (key position, feature), are the specification's. -/
theorem keys_row (c : Dev nD) (t : Fin cfg0.N) :
    (fun (m' : Fin 2048) (d : Fin 64) => k0_pay2 (keyBlk m c (head t)) (ix2 m' d))
      = fun m' d => aff (m ((c : Thread nD τ).loc main_arg1)
          (ix4 (⟨t.val / 4 / 8, by have := t.isLt; have := N128; omega⟩ : Fin 4) (⟨t.val / 4 % 8, Nat.mod_lt _ (by decide)⟩ : Fin 8) m' d)) :=
  funext fun m' => funext fun d => (signedKeys_apply _ m' d).trans rfl

/-- The values the carried buffer holds at `t`, read at (key position, feature), are the head's. -/
theorem vals_row (c : Dev nD) (t : Fin cfg0.N) :
    (fun (m' : Fin 2048) (d : Fin 64) => k0_pay3 (valBlk m c (head t)) (ix2 m' d))
      = fun m' d => m ((c : Thread nD τ).loc main_arg2)
          (ix4 (⟨t.val / 4 / 8, by have := t.isLt; have := N128; omega⟩ : Fin 4) (⟨t.val / 4 % 8, Nat.mod_lt _ (by decide)⟩ : Fin 8) m' d) :=
  funext fun m' => funext fun d => (vals_apply _ m' d).trans rfl

/-- WHAT POINT `t` WRITES BACK to the weights array is block `t` of the specification's weights. -/
theorem flushed_weights (c : Dev nD) (t : Fin cfg0.N) :
    (dats m 0 c).flushed 4 t = ((cfg0.win 4).blk t).view.read (Elt Ideal) (weights m c) := by
  rw [Value.flushed4, weights_at]
  obtain ⟨-, -, -, -, ⟨e0, e1, e2, e3⟩⟩ := idx_facts t
  have ht : t.val < 128 := lt_of_lt_of_eq t.isLt N128
  funext y
  show k0_pay5 (qryBlk m c t) (k0_pay2 (keyBlk m c (head t))) y = weights m c (((cfg0.win 4).blk t).view.emb y)
  obtain ⟨a0, a1, r, mm, rfl⟩ : ∃ (a0 a1 : Fin 1) (r : Fin 512) (mm : Fin 2048), y = ix4 a0 a1 r mm :=
    ⟨y 0, y 1, y 2, y 3, eq_ix4 y⟩
  obtain rfl : a0 = 0 := Fin.ext (by have := a0.isLt; omega)
  obtain rfl : a1 = 0 := Fin.ext (by have := a1.isLt; omega)
  have hemb : ((cfg0.win 4).blk t).view.emb (ix4 (0 : Fin 1) (0 : Fin 1) r mm)
      = ix4 (⟨t.val / 4 / 8, by omega⟩ : Fin 4) (⟨t.val / 4 % 8, Nat.mod_lt _ (by decide)⟩ : Fin 8)
          (⟨t.val % 4 * 512 + r.val, by have := r.isLt; omega⟩ : Fin 2048) mm := by
    funext a
    apply Fin.ext
    match a with
    | ⟨0, _⟩ => show win0_4.index t (0 : Fin 4) * 1 + 1 * 0 = t.val / 4 / 8; rw [e0]; omega
    | ⟨1, _⟩ => show win0_4.index t (1 : Fin 4) * 1 + 1 * 0 = t.val / 4 % 8; rw [e1]; omega
    | ⟨2, _⟩ => show win0_4.index t (2 : Fin 4) * 512 + 1 * r.val = t.val % 4 * 512 + r.val; rw [e2]; omega
    | ⟨3, _⟩ => show win0_4.index t (3 : Fin 4) * 2048 + 1 * mm.val = mm.val; rw [e3]; omega
  rw [hemb, weights_apply, keys_row]
  exact (score_row _ _ _ _ _ _).symm

/-- WHAT POINT `t` WRITES BACK to the attended array is block `t` of the specification's attended values. -/
theorem flushed_attended (c : Dev nD) (t : Fin cfg0.N) :
    (dats m 0 c).flushed 3 t = ((cfg0.win 3).blk t).view.read (Elt Ideal) (attended m c) := by
  rw [Value.flushed3, attended_at]
  obtain ⟨-, -, -, ⟨e0, e1, e2, e3⟩, -⟩ := idx_facts t
  have ht : t.val < 128 := lt_of_lt_of_eq t.isLt N128
  funext y
  show k0_pay1 (k0_pay6 (qryBlk m c t) (k0_pay2 (keyBlk m c (head t))) (k0_pay3 (valBlk m c (head t)))) y
    = attended m c (((cfg0.win 3).blk t).view.emb y)
  obtain ⟨a0, a1, r, d, rfl⟩ : ∃ (a0 a1 : Fin 1) (r : Fin 512) (d : Fin 64), y = ix4 a0 a1 r d :=
    ⟨y 0, y 1, y 2, y 3, eq_ix4 y⟩
  obtain rfl : a0 = 0 := Fin.ext (by have := a0.isLt; omega)
  obtain rfl : a1 = 0 := Fin.ext (by have := a1.isLt; omega)
  have hemb : ((cfg0.win 3).blk t).view.emb (ix4 (0 : Fin 1) (0 : Fin 1) r d)
      = ix4 (⟨t.val / 4 / 8, by omega⟩ : Fin 4) (⟨t.val / 4 % 8, Nat.mod_lt _ (by decide)⟩ : Fin 8)
          (⟨t.val % 4 * 512 + r.val, by have := r.isLt; omega⟩ : Fin 2048) d := by
    funext a
    apply Fin.ext
    match a with
    | ⟨0, _⟩ => show win0_3.index t (0 : Fin 4) * 1 + 1 * 0 = t.val / 4 / 8; rw [e0]; omega
    | ⟨1, _⟩ => show win0_3.index t (1 : Fin 4) * 1 + 1 * 0 = t.val / 4 % 8; rw [e1]; omega
    | ⟨2, _⟩ => show win0_3.index t (2 : Fin 4) * 512 + 1 * r.val = t.val % 4 * 512 + r.val; rw [e2]; omega
    | ⟨3, _⟩ => show win0_3.index t (3 : Fin 4) * 64 + 1 * d.val = d.val; rw [e3]; omega
  rw [hemb, attended_apply, keys_row, vals_row]
  exact (out_row _ _ _ _ _ _ _).symm

/-- An index of the weights array is in point `t`'s block iff each coordinate is in the block's range. -/
theorem mem_blk4 (t : Fin cfg0.N) (i : S4x8x2048x2048.Idx) :
    i ∈ ((cfg0.win 4).blk t).view.set ↔ ∀ a : Fin 4, win0_4.index t a * S1x1x512x2048.size a ≤ (i a).val
      ∧ (i a).val < win0_4.index t a * S1x1x512x2048.size a + S1x1x512x2048.size a := by
  show i ∈ ((View.whole main_v0_1).slice (win0_4.rect t)).set ↔ _
  rw [View.set_slice_whole, Rect.mem_set_unit]
  exact Iff.rfl

/-- An index of the attended array is in point `t`'s block iff each coordinate is in the block's range. -/
theorem mem_blk3 (t : Fin cfg0.N) (i : S4x8x2048x64.Idx) :
    i ∈ ((cfg0.win 3).blk t).view.set ↔ ∀ a : Fin 4, win0_3.index t a * S1x1x512x64.size a ≤ (i a).val
      ∧ (i a).val < win0_3.index t a * S1x1x512x64.size a + S1x1x512x64.size a := by
  show i ∈ ((View.whole main_v0_0).slice (win0_3.rect t)).set ↔ _
  rw [View.set_slice_whole, Rect.mem_set_unit]
  exact Iff.rfl

/-- Row `n` of head (b, h) lies in the block of point (b·8 + h)·4 + n / 512: the blocks cover the weights array. -/
theorem cover4 (i : S4x8x2048x2048.Idx) :
    ∃ t : Fin cfg0.N, (cfg0.win 4).flush t = true ∧ i ∈ ((cfg0.win 4).blk t).view.set := by
  have h0 : (i 0).val < 4 := (i 0).isLt
  have h1 : (i 1).val < 8 := (i 1).isLt
  have h2 : (i 2).val < 2048 := (i 2).isLt
  have h3 : (i 3).val < 2048 := (i 3).isLt
  obtain ⟨t, ht⟩ : ∃ t : Fin cfg0.N, t.val = ((i 0).val * 8 + (i 1).val) * 4 + (i 2).val / 512 :=
    ⟨⟨((i 0).val * 8 + (i 1).val) * 4 + (i 2).val / 512, by rw [N128]; omega⟩, rfl⟩
  obtain ⟨-, -, -, -, ⟨e0, e1, e2, e3⟩⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; rw [e0]; omega
  | ⟨1, _⟩ => show win0_4.index t (1 : Fin 4) * 1 ≤ (i 1).val ∧ (i 1).val < win0_4.index t (1 : Fin 4) * 1 + 1; rw [e1]; omega
  | ⟨2, _⟩ => show win0_4.index t (2 : Fin 4) * 512 ≤ (i 2).val ∧ (i 2).val < win0_4.index t (2 : Fin 4) * 512 + 512; rw [e2]; omega
  | ⟨3, _⟩ => show win0_4.index t (3 : Fin 4) * 2048 ≤ (i 3).val ∧ (i 3).val < win0_4.index t (3 : Fin 4) * 2048 + 2048; rw [e3]; omega

/-- The same for the attended array. -/
theorem cover3 (i : S4x8x2048x64.Idx) :
    ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 2048 := (i 2).isLt
  have h3 : (i 3).val < 64 := (i 3).isLt
  obtain ⟨t, ht⟩ : ∃ t : Fin cfg0.N, t.val = ((i 0).val * 8 + (i 1).val) * 4 + (i 2).val / 512 :=
    ⟨⟨((i 0).val * 8 + (i 1).val) * 4 + (i 2).val / 512, by rw [N128]; omega⟩, rfl⟩
  obtain ⟨-, -, -, ⟨e0, e1, e2, e3⟩, -⟩ := idx_facts t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; rw [e0]; omega
  | ⟨1, _⟩ => show win0_3.index t (1 : Fin 4) * 1 ≤ (i 1).val ∧ (i 1).val < win0_3.index t (1 : Fin 4) * 1 + 1; rw [e1]; omega
  | ⟨2, _⟩ => show win0_3.index t (2 : Fin 4) * 512 ≤ (i 2).val ∧ (i 2).val < win0_3.index t (2 : Fin 4) * 512 + 512; rw [e2]; omega
  | ⟨3, _⟩ => show win0_3.index t (3 : Fin 4) * 64 ≤ (i 3).val ∧ (i 3).val < win0_3.index t (3 : Fin 4) * 64 + 64; rw [e3]; omega

/-- So the weights array ends at the specification's weights, -/
theorem final_weights (c : Dev nD) : (dats m 0 c).arrAt 4 cfg0.N = weights m c :=
  (dats m 0 c).arrAt_eq_of_cover 4 (weights m c) (fun t _ => flushed_weights m c t) cover4

/-- and the attended array at the specification's attended values. -/
theorem final_attended (c : Dev nD) : (dats m 0 c).arrAt 3 cfg0.N = attended m c :=
  (dats m 0 c).arrAt_eq_of_cover 3 (attended m c) (fun t _ => flushed_attended m c t) cover3

/-- THE KERNEL'S RUN, READ: every weakly fair execution ends with both result arrays at the specification's
    functions of the launch contents of the arguments, and the arguments unchanged. -/
theorem run : θ_run defs (onTc (τ := τ) (main (F := Ideal))) ⟨m, fun _ => 0, ρ⟩ fun r => ∀ c : Dev nD,
      r.2.mem ((c : Thread nD τ).loc main_v0_0) = attended m c
      ∧ r.2.mem ((c : Thread nD τ).loc main_v0_1) = weights m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_attended m c), (h c).2.1.trans (final_weights m c), (h c).2.2⟩)
    (Value.run_blocks m ρ)

end Cert.KernelIdeal.Whole

end
-- ==== Proof.Softmax.lean ====
/-
  Softmax shift invariance over the extended reals, and the float words of the specification as reals.
-/
import proofs.«177471_j6932077216007_2_alg».proof.Proof.Spec
import Idealize.ShloMosaic.PureOps.Ideal.Laws

noncomputable section

namespace Cert.Attn

open Idealize.ShloMosaic

/-! ## The float words as extended reals

Each single-precision word splits into a sign bit, an 8-bit exponent field `e` and a 23-bit fraction field `f`,
and (for `0 < e < 255`) denotes `± (2^23 + f) · 2^(e − 127 − 23)`; the all-ones exponent with zero fraction
is the infinity of its sign. -/

/-- `0x40000000`: sign `+`, `e = 128`, `f = 0`, so `2^23 · 2^(128 − 150) = 2`. -/
theorem wTwo_eq : (Ideal.ofBits .f32 0x40000000#32 : EReal) = ((2 : ℝ) : EReal) := by
  simp [Ideal.ofBits, Ideal.ieee, -EReal.coe_mul]; norm_num

/-- `0x3F800000`: sign `+`, `e = 127`, `f = 0`, so `2^23 · 2^(127 − 150) = 1`. -/
theorem wOne_eq : (Ideal.ofBits .f32 0x3F800000#32 : EReal) = ((1 : ℝ) : EReal) := by
  simp [Ideal.ofBits, Ideal.ieee, -EReal.coe_mul]; norm_num

/-- `0x3C000000`: sign `+`, `e = 120`, `f = 0`, so `2^23 · 2^(120 − 150) = 2⁻⁷ = 1/128`. -/
theorem wScale_eq : (Ideal.ofBits .f32 0x3C000000#32 : EReal) = ((1 / 128 : ℝ) : EReal) := by
  simp [Ideal.ofBits, Ideal.ieee, -EReal.coe_mul]; norm_num

/-- `0x42800000`: sign `+`, `e = 133`, `f = 0`, so `2^23 · 2^(133 − 150) = 2⁶ = 64`. -/
theorem wSixtyFour_eq : (Ideal.ofBits .f32 0x42800000#32 : EReal) = ((64 : ℝ) : EReal) := by
  simp [Ideal.ofBits, Ideal.ieee, -EReal.coe_mul]; norm_num

/-- `0x3F000000`: sign `+`, `e = 126`, `f = 0`, so `2^23 · 2^(126 − 150) = 2⁻¹ = 1/2`. -/
theorem wHalf_eq : (Ideal.ofBits .f32 0x3F000000#32 : EReal) = ((1 / 2 : ℝ) : EReal) := by
  simp [Ideal.ofBits, Ideal.ieee, -EReal.coe_mul]; norm_num

/-- `0xFF800000`: sign `−`, `e = 255`, `f = 0`: the negative infinity. -/
theorem wNegInf_eq : (Ideal.ofBits .f32 0xFF800000#32 : EReal) = ⊥ := by
  simp [Ideal.ofBits, Ideal.ieee]

/-! ## Folds of `max` from `⊥` over real entries -/

/-- Adding a real constant to every entry adds it to the fold of `max` from `⊥`:
    `x ↦ c + x` is monotone, so it commutes with `max`, and `c + ⊥ = ⊥`. -/
private theorem fold_max_const_add {ι : Type} (c : ℝ) (s : ι → ℝ) (S : Finset ι) :
    S.fold max (⊥ : EReal) (fun k => ((c + s k : ℝ) : EReal))
      = (c : EReal) + S.fold max (⊥ : EReal) (fun k => ((s k : ℝ) : EReal)) := by
  classical
  induction S using Finset.induction_on with
  | empty => rw [Finset.fold_empty, Finset.fold_empty, EReal.add_bot]
  | insert a S ha ih =>
    rw [Finset.fold_insert ha, Finset.fold_insert ha, ih, EReal.coe_add]
    have hmono : Monotone (fun x : EReal => (c : EReal) + x) := fun x y h => add_le_add le_rfl h
    exact (hmono.map_max).symm

/-- The fold of `max` from `⊥` over real entries, one of which is indexed in the set, is a real. -/
private theorem fold_max_real {ι : Type} (s : ι → ℝ) (S : Finset ι) (i : ι) (hi : i ∈ S) :
    ∃ μ : ℝ, S.fold max (⊥ : EReal) (fun k => ((s k : ℝ) : EReal)) = (μ : EReal) := by
  have htop : S.fold max (⊥ : EReal) (fun k => ((s k : ℝ) : EReal)) ≠ ⊤ := by
    apply ne_of_lt
    rw [Finset.fold_max_lt]
    exact ⟨bot_lt_top, fun x _ => EReal.coe_lt_top _⟩
  have hbot : S.fold max (⊥ : EReal) (fun k => ((s k : ℝ) : EReal)) ≠ ⊥ := by
    apply ne_of_gt
    have hle : ((s i : ℝ) : EReal) ≤ S.fold max (⊥ : EReal) (fun k => ((s k : ℝ) : EReal)) := by
      rw [Finset.le_fold_max]
      exact Or.inr ⟨i, hi, le_rfl⟩
    exact lt_of_lt_of_le (EReal.bot_lt_coe _) hle
  exact ⟨_, (EReal.coe_toReal htop hbot).symm⟩

/-- The row law over reals: with `s k = r k · (1/128)`, the entry `1/2 + s i` less the fold of the entries
    `1/2 + s k` is the entry `s i` less the fold of the entries `s k`. -/
private theorem shift_row_real {ι : Type} [Fintype ι] (s : ι → ℝ) (i : ι) :
    ((1 / 2 + s i : ℝ) : EReal)
        - max ⊥ ((Finset.univ : Finset ι).fold max (⊥ : EReal) (fun k => ((1 / 2 + s k : ℝ) : EReal)))
      = ((s i : ℝ) : EReal) - (Finset.univ : Finset ι).fold max (⊥ : EReal) (fun k => ((s k : ℝ) : EReal)) := by
  obtain ⟨μ, hμ⟩ := fold_max_real s Finset.univ i (Finset.mem_univ i)
  rw [max_eq_right bot_le, fold_max_const_add, hμ, ← EReal.coe_add, ← EReal.coe_sub, ← EReal.coe_sub]
  congr 1
  ring

/-- THE ROW LAW. A softmax row is unchanged by adding a constant to every logit: for a row `a` of real entries the
    shifted logit `½·(1 + a_i / 64) − max(−∞, max_k ½·(1 + a_k / 64))` equals `a_i·2⁻⁷ − max_k (a_k·2⁻⁷)`.
    With `s k = a_k / 128` the left entries are `1/2 + s k` and the right ones `s k`; the constant `1/2` leaves
    the fold of `max` as a summand and cancels in the difference, which is a difference of reals because the fold
    over the whole (nonempty, as it holds `i`) index type is real. -/
theorem shift_row {ι : Type} [Fintype ι] (a : ι → EReal) (ha : ∀ k, ∃ r : ℝ, a k = (r : EReal)) (i : ι) :
    Ideal.ofBits .f32 0x3F000000#32 * (Ideal.ofBits .f32 0x3F800000#32 + Ideal.div (a i) (Ideal.ofBits .f32 0x42800000#32))
      - max (Ideal.ofBits .f32 0xFF800000#32)
          ((Finset.univ : Finset ι).fold max (Ideal.ofBits .f32 0xFF800000#32)
            (fun k => Ideal.ofBits .f32 0x3F000000#32 * (Ideal.ofBits .f32 0x3F800000#32 + Ideal.div (a k) (Ideal.ofBits .f32 0x42800000#32))))
    = a i * Ideal.ofBits .f32 0x3C000000#32
      - (Finset.univ : Finset ι).fold max (Ideal.ofBits .f32 0xFF800000#32) (fun k => a k * Ideal.ofBits .f32 0x3C000000#32) := by
  choose r hr using ha
  obtain rfl : a = fun k => (r k : EReal) := funext hr
  rw [wHalf_eq, wOne_eq, wSixtyFour_eq, wNegInf_eq, wScale_eq]
  have href : ∀ k, ((1 / 2 : ℝ) : EReal) * (((1 : ℝ) : EReal) + Ideal.div ((r k : ℝ) : EReal) ((64 : ℝ) : EReal))
      = ((1 / 2 + r k * (1 / 128) : ℝ) : EReal) := by
    intro k
    rw [Ideal.div_coe (by norm_num : (64 : ℝ) ≠ 0), ← EReal.coe_mul, ← EReal.coe_add, ← EReal.coe_mul]
    congr 1
    ring
  have hker : ∀ k, ((r k : ℝ) : EReal) * ((1 / 128 : ℝ) : EReal) = ((r k * (1 / 128) : ℝ) : EReal) := by
    intro k
    rw [← EReal.coe_mul]
  simp only [href, hker]
  exact shift_row_real (fun k => r k * (1 / 128)) i

/-! ## Sums of products of reals are real -/

/-- The affine map `2·x − 1` sends reals to reals. -/
theorem aff_real {x : EReal} (hx : ∃ r : ℝ, x = (r : EReal)) : ∃ r : ℝ, aff x = (r : EReal) := by
  obtain ⟨r, rfl⟩ := hx
  refine ⟨2 * r - 1, ?_⟩
  show Ideal.ofBits .f32 0x40000000#32 * ((r : ℝ) : EReal) - Ideal.ofBits .f32 0x3F800000#32 = _
  rw [wTwo_eq, wOne_eq, ← EReal.coe_mul, ← EReal.coe_sub]

/-- A finite sum of reals is real: `0` is real, and a real plus a real is real. -/
private theorem sum_real {ι : Type} (S : Finset ι) (f : ι → EReal) (hf : ∀ k, ∃ r : ℝ, f k = (r : EReal)) :
    ∃ r : ℝ, ∑ k ∈ S, f k = (r : EReal) := by
  classical
  induction S using Finset.induction_on with
  | empty => exact ⟨0, by rw [Finset.sum_empty, EReal.coe_zero]⟩
  | insert a S ha ih =>
    obtain ⟨t, ht⟩ := ih
    obtain ⟨u, hu⟩ := hf a
    exact ⟨u + t, by rw [Finset.sum_insert ha, ht, hu, EReal.coe_add]⟩

/-- Each similarity is real when the queries and keys are: every summand is a product of two reals. -/
theorem sim_real (Q K : SQ.Idx → EReal) (hQ : ∀ i, ∃ r : ℝ, Q i = (r : EReal)) (hK : ∀ i, ∃ r : ℝ, K i = (r : EReal))
    (b : Fin 4) (h : Fin 8) (n m : Fin 2048) : ∃ r : ℝ, sim Q K b h n m = (r : EReal) := by
  unfold sim
  apply sum_real
  intro d
  obtain ⟨u, hu⟩ := aff_real (hQ (ValueIdx.ix4 b h n d))
  obtain ⟨v, hv⟩ := aff_real (hK (ValueIdx.ix4 b h m d))
  exact ⟨u * v, by rw [hu, hv, EReal.coe_mul]⟩

end Cert.Attn

end
-- ==== Proof.RefSpec.lean ====
/-
  The reference program, read at the extended reals, computes the specification's `score` and `out`.

  Stage by stage, at an index (b, h, n, m):
    2·Q − 1 and 2·K − 1 are the affine map `aff` entry by entry;
    their contraction over the feature axis is `sim`;
    the reference's logit is ½ · (1 + sim / 64);
    its row maximum is max(−∞, fold of max from −∞ over m);
    logit − row maximum equals sim · 2⁻⁷ − rowMax, because the additive constant ½ cancels
      once every similarity is a real number;
    the exponential of that is `num`, its sum over m (from the zero word) is `den`,
    the quotient is `score`, and the contraction of `score` with V over m is `out`.
-/
import proofs.«177471_j6932077216007_2_alg».proof.Proof.Gen.ReferenceIdeal.Read
import proofs.«177471_j6932077216007_2_alg».proof.Proof.Spec
import proofs.«177471_j6932077216007_2_alg».proof.Proof.Softmax
import Idealize.ShloMosaic.PureOps.Ideal.Laws
import Idealize.ShloMosaic.Lib.ValueIdx

noncomputable section

namespace Cert.Attn.Ref

open Idealize.ShloMosaic Idealize.ShloMosaic.ValueIdx Cert.ReferenceIdeal Cert.ReferenceIdeal.Read Cert.Attn

/-- The buffers of the reference: arrays of shape [4, 8, 2048, 64] over the extended reals. -/
abbrev Arr : Type := (⟨Cert.ReferenceIdeal.S4x8x2048x64, .f32⟩ : BufTy).Contents (Elt Ideal)

/-- The reference's 2·x − 1 of its first argument is the specification's affine map, entry by entry. -/
theorem v3_at (Q : Arr) (i : S4x8x2048x64.Idx) : val_main_v3 (F := Ideal) Q i = aff (Q i) := by
  rw [val_main_v3_apply, val_main_v1_apply, val_main_v0_apply, val_main_cst_apply, val_main_v2_apply,
    val_main_cst_0_apply]
  simp only [Ideal.mulf_def, Ideal.subf_def, Ideal.ofBits_def]
  rfl

/-- The same for the second argument. -/
theorem v7_at (K : Arr) (i : S4x8x2048x64.Idx) : val_main_v7 (F := Ideal) K i = aff (K i) := by
  rw [val_main_v7_apply, val_main_v5_apply, val_main_v4_apply, val_main_cst_1_apply, val_main_v6_apply,
    val_main_cst_2_apply]
  simp only [Ideal.mulf_def, Ideal.subf_def, Ideal.ofBits_def]
  rfl

/-- The left operand of the first contraction at (b, h, n, m), feature d, sits at (b, h, n, d). -/
theorem lidx8 (b : Fin 4) (h : Fin 8) (n m : Fin 2048) (d : Fin 64) :
    lidx_main_v8 (ix4 b h n m) d = ix4 b h n d :=
  funext fun a => Fin.ext (by match a with | ⟨0, _⟩ => rfl | ⟨1, _⟩ => rfl | ⟨2, _⟩ => rfl | ⟨3, _⟩ => rfl)

/-- The right operand of the first contraction at (b, h, n, m), feature d, sits at (b, h, m, d). -/
theorem ridx8 (b : Fin 4) (h : Fin 8) (n m : Fin 2048) (d : Fin 64) :
    ridx_main_v8 (ix4 b h n m) d = ix4 b h m d :=
  funext fun a => Fin.ext (by match a with | ⟨0, _⟩ => rfl | ⟨1, _⟩ => rfl | ⟨2, _⟩ => rfl | ⟨3, _⟩ => rfl)

/-- The first contraction is the specification's similarity. -/
theorem v8_at (Q K : Arr) (b : Fin 4) (h : Fin 8) (n m : Fin 2048) :
    val_main_v8 (F := Ideal) Q K (ix4 b h n m) = sim Q K b h n m := by
  rw [val_main_v8_apply]
  unfold sim
  refine Finset.sum_congr rfl fun d _ => ?_
  rw [v3_at, v7_at, lidx8, ridx8]

/-- The reference's logit: ½ · (1 + sim / 64), the constants as printed words. -/
theorem v14_at (Q K : Arr) (b : Fin 4) (h : Fin 8) (n m : Fin 2048) :
    val_main_v14 (F := Ideal) Q K (ix4 b h n m)
      = Ideal.ofBits .f32 0x3F000000#32 * (Ideal.ofBits .f32 0x3F800000#32
          + Ideal.div (sim Q K b h n m) (Ideal.ofBits .f32 0x42800000#32)) := by
  rw [val_main_v14_apply, val_main_v13_apply, val_main_cst_5_apply, val_main_v12_apply, val_main_v11_apply,
    val_main_cst_4_apply, val_main_v10_apply, val_main_v9_apply, val_main_cst_3_apply, v8_at]
  simp only [Ideal.mulf_def, Ideal.addf_def, Ideal.hostDivf_def, Ideal.ofBits_def]

/-- The row maximum runs over the last axis of [4, 8, 2048, 2048]. -/
theorem hred : S4x8x2048x2048.Reduces [3] S4x8x2048 := by decide

/-- The reduced index (b, h, n) with key position k put back is (b, h, n, k). -/
theorem lift3 (b : Fin 4) (h : Fin 8) (n : Fin 2048) (k : Fin (S4x8x2048x2048.size 3)) :
    hred.lift (ix3 b h n) k = ix4 b h n (⟨k.val, k.isLt⟩ : Fin 2048) := by
  funext c; apply Fin.ext
  match c with | ⟨0, _⟩ => rfl | ⟨1, _⟩ => rfl | ⟨2, _⟩ => rfl | ⟨3, _⟩ => rfl

/-- The reference's reduce-max at (b, h, n): the fold of max, from the −∞ word, of the logits of row n. -/
theorem v15_at (Q K : Arr) (b : Fin 4) (h : Fin 8) (n : Fin 2048) :
    val_main_v15 (F := Ideal) Q K (ix3 b h n)
      = (Finset.univ : Finset (Fin 2048)).fold max (Ideal.ofBits .f32 0xFF800000#32)
          (fun m => val_main_v14 (F := Ideal) Q K (ix4 b h n m)) := by
  unfold val_main_v15
  rw [Host.reduce_eq_fold_single FloatOps.maximumf _ _ _ hred]
  have hf : (val_main_v14 (F := Ideal) Q K ∘ hred.lift (ix3 b h n))
      = fun m : Fin 2048 => val_main_v14 (F := Ideal) Q K (ix4 b h n m) :=
    funext fun k => congrArg (val_main_v14 (F := Ideal) Q K) (lift3 b h n k)
  exact congrArg (fun f => Finset.fold max (Ideal.ofBits .f32 0xFF800000#32) f (Finset.univ : Finset (Fin 2048))) hf

/-- The guard of the softmax: the maximum of −∞ and the reduce-max. -/
theorem v17_at (Q K : Arr) (b : Fin 4) (h : Fin 8) (n : Fin 2048) :
    val_main_v17 (F := Ideal) Q K (ix3 b h n)
      = max (Ideal.ofBits .f32 0xFF800000#32)
          ((Finset.univ : Finset (Fin 2048)).fold max (Ideal.ofBits .f32 0xFF800000#32)
            (fun m => Ideal.ofBits .f32 0x3F000000#32 * (Ideal.ofBits .f32 0x3F800000#32
              + Ideal.div (sim Q K b h n m) (Ideal.ofBits .f32 0x42800000#32)))) := by
  rw [val_main_v17_apply, val_main_v16_apply, val_main_cst_7_apply, v15_at]
  simp only [Ideal.maximumf_def, Ideal.ofBits_def]
  refine congrArg (max _) (congrArg (fun f => Finset.fold max (Ideal.ofBits .f32 0xFF800000#32) f
    (Finset.univ : Finset (Fin 2048))) (funext fun m => v14_at Q K b h n m))

/-- The guarded maximum broadcast back along the key axis. -/
theorem v19_at (Q K : Arr) (b : Fin 4) (h : Fin 8) (n m : Fin 2048) :
    val_main_v19 (F := Ideal) Q K (ix4 b h n m) = val_main_v17 (F := Ideal) Q K (ix3 b h n) := by
  rw [val_main_v19_apply, val_main_v18_apply]
  exact congrArg (val_main_v17 (F := Ideal) Q K)
    (funext fun a => Fin.ext (by match a with | ⟨0, _⟩ => rfl | ⟨1, _⟩ => rfl | ⟨2, _⟩ => rfl))

/-- The reference's shifted logit is the specification's: inside the softmax the constant ½ cancels, the
    similarities of real inputs being real. -/
theorem v20_at (Q K : Arr) (hQ : ∀ i, ∃ r : ℝ, Q i = (r : EReal)) (hK : ∀ i, ∃ r : ℝ, K i = (r : EReal))
    (b : Fin 4) (h : Fin 8) (n m : Fin 2048) :
    val_main_v20 (F := Ideal) Q K (ix4 b h n m) = logit Q K b h n m - rowMax Q K b h n := by
  rw [val_main_v20_apply, v14_at, v19_at, v17_at]
  simp only [Ideal.subf_def]
  exact Cert.Attn.shift_row (fun m' => sim Q K b h n m') (fun m' => Cert.Attn.sim_real Q K hQ hK b h n m') m

/-- Its exponential is the specification's numerator. -/
theorem v21_at (Q K : Arr) (hQ : ∀ i, ∃ r : ℝ, Q i = (r : EReal)) (hK : ∀ i, ∃ r : ℝ, K i = (r : EReal))
    (b : Fin 4) (h : Fin 8) (n m : Fin 2048) :
    val_main_v21 (F := Ideal) Q K (ix4 b h n m) = num Q K b h n m := by
  rw [val_main_v21_apply, v20_at Q K hQ hK]
  simp only [Ideal.hostUnary_exp_def]
  rfl

/-- The float sum at (b, h, n) reads its operand at (b, h, n, k). -/
theorem idx22 (b : Fin 4) (h : Fin 8) (n k : Fin 2048) : idx_main_v22 (ix3 b h n) k = ix4 b h n k :=
  funext fun a => Fin.ext (by match a with | ⟨0, _⟩ => rfl | ⟨1, _⟩ => rfl | ⟨2, _⟩ => rfl | ⟨3, _⟩ => rfl)

/-- The reference's row sum, started from the zero word, is the specification's normaliser. -/
theorem v22_at (Q K : Arr) (hQ : ∀ i, ∃ r : ℝ, Q i = (r : EReal)) (hK : ∀ i, ∃ r : ℝ, K i = (r : EReal))
    (b : Fin 4) (h : Fin 8) (n : Fin 2048) :
    val_main_v22 (F := Ideal) Q K (ix3 b h n) = den Q K b h n := by
  rw [val_main_v22_apply, val_main_cst_8_apply]
  simp only [Ideal.ofBits_def]
  rw [Ideal.ofBits_zero_f32, zero_add]
  unfold den
  refine Finset.sum_congr rfl fun k _ => ?_
  rw [idx22, v21_at Q K hQ hK]

/-- The normaliser broadcast back along the key axis. -/
theorem v24_at (Q K : Arr) (hQ : ∀ i, ∃ r : ℝ, Q i = (r : EReal)) (hK : ∀ i, ∃ r : ℝ, K i = (r : EReal))
    (b : Fin 4) (h : Fin 8) (n m : Fin 2048) :
    val_main_v24 (F := Ideal) Q K (ix4 b h n m) = den Q K b h n := by
  rw [val_main_v24_apply, val_main_v23_apply]
  have e : idx_main_v23 (idx_main_v24 (ix4 b h n m)) = ix3 b h n :=
    funext fun a => Fin.ext (by match a with | ⟨0, _⟩ => rfl | ⟨1, _⟩ => rfl | ⟨2, _⟩ => rfl)
  rw [e, v22_at Q K hQ hK]

/-- The reference's attention weights are the specification's, index by index. -/
theorem ref_score (Q K : (⟨Cert.ReferenceIdeal.S4x8x2048x64, .f32⟩ : BufTy).Contents (Elt Ideal))
    (hQ : ∀ i, ∃ r : ℝ, Q i = (r : EReal)) (hK : ∀ i, ∃ r : ℝ, K i = (r : EReal)) :
    val_main_v25 (F := Ideal) Q K = Cert.Attn.score Q K := by
  funext i
  obtain ⟨b, h, n, m, rfl⟩ : ∃ b h n m, i = ix4 b h n m := ⟨i 0, i 1, i 2, i 3, eq_ix4 i⟩
  rw [val_main_v25_apply, v21_at Q K hQ hK, v24_at Q K hQ hK]
  simp only [Ideal.hostDivf_def]
  rfl

/-- The second contraction at (b, h, n, d), key position m, reads the weights at (b, h, n, m). -/
theorem lidx26 (b : Fin 4) (h : Fin 8) (n : Fin 2048) (d : Fin 64) (m : Fin 2048) :
    lidx_main_v26 (ix4 b h n d) m = ix4 b h n m :=
  funext fun a => Fin.ext (by match a with | ⟨0, _⟩ => rfl | ⟨1, _⟩ => rfl | ⟨2, _⟩ => rfl | ⟨3, _⟩ => rfl)

/-- … and the values at (b, h, m, d). -/
theorem ridx26 (b : Fin 4) (h : Fin 8) (n : Fin 2048) (d : Fin 64) (m : Fin 2048) :
    ridx_main_v26 (ix4 b h n d) m = ix4 b h m d :=
  funext fun a => Fin.ext (by match a with | ⟨0, _⟩ => rfl | ⟨1, _⟩ => rfl | ⟨2, _⟩ => rfl | ⟨3, _⟩ => rfl)

/-- The reference's attended values are the specification's, index by index. -/
theorem ref_out (Q K V : (⟨Cert.ReferenceIdeal.S4x8x2048x64, .f32⟩ : BufTy).Contents (Elt Ideal))
    (hQ : ∀ i, ∃ r : ℝ, Q i = (r : EReal)) (hK : ∀ i, ∃ r : ℝ, K i = (r : EReal)) :
    val_main_v26 (F := Ideal) Q K V = Cert.Attn.out Q K V := by
  funext i
  obtain ⟨b, h, n, d, rfl⟩ : ∃ b h n d, i = ix4 b h n d := ⟨i 0, i 1, i 2, i 3, eq_ix4 i⟩
  rw [val_main_v26_apply]
  unfold out
  refine Finset.sum_congr rfl fun m _ => ?_
  rw [lidx26, ridx26, ref_score Q K hQ hK]

end Cert.Attn.Ref

end
-- ==== Proof.Finite.lean ====
/-
  THE PRECONDITION `finite_inputs` READ BACK. The precondition tests, for each of the three
  f32[4, 8, 2048, 64] arguments, |x| < +∞ at every entry, takes the conjunction of the tests over all four axes
  starting from 1, and joins the three results by `and`. Read over the extended reals, where |x| is max x (−x)
  and the pattern 0x7F800000 is +∞, the claim's hypothesis says this word is 1. Then each of the three conjunctions
  is 1, so every entry passes its test, and an extended real with max x (−x) < +∞ is neither −∞ nor +∞: it is a
  real number.
-/
import proofs.«177471_j6932077216007_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Attn.Finite

open Idealize.ShloMosaic
open Cert.Pre_finite_inputs

/-- The rank-0 shape has exactly one index: there is no axis to choose a coordinate on. -/
instance subsingleton_S_ : Subsingleton S_.Idx := ⟨fun a b => funext fun d => d.elim0⟩

/-- The f32 pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (−x) lies strictly below +∞ is a real number:
    at x = −∞ the maximum is −(−∞) = +∞, at x = +∞ it is +∞, and neither is below +∞. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The element test |x| < +∞, as the precondition spells it on one entry, says that x is real. -/
theorem real_of_test (x : Ideal .f32)
    (h : FloatOps.cmpf (F := Ideal) .olt (FloatOps.hostAbsf x) (FloatOps.ofBits .f32 0x7F800000#32) = 1#1) :
    ∃ r : ℝ, x = (r : EReal) := by
  rw [Ideal.hostAbsf_def, Ideal.ofBits_def, Ideal.cmpf_def, Ideal.absf_def, ofBits_inf] at h
  unfold Ideal.cmp at h
  apply real_of_abs_lt_top
  by_contra hn
  simp [hn] at h

/-- One argument's test: if the conjunction over all entries of |x| < +∞, folded from the constant 1,
    is 1 at the result's one index, then every entry passed the test, so every entry is real. -/
theorem real_of_all [Facts] (x : FVec Ideal S4x8x2048x64 .f32) (j : S_.Idx)
    (h : Host.reduce IntOp.andi
          (cmpf .olt (Host.absf x)
            (broadcastInDim S4x8x2048x64 ![] Facts.bcast_S_S4x8x2048x64 (constant S_ .f32 0x7F800000#32)))
          (constantI S_ 1 1#1) Facts.reducesTo_S4x8x2048x64_S_d0_1_2_3 Facts.h_S_ j = 1#1) :
    ∀ i, ∃ r : ℝ, x i = (r : EReal) := fun i =>
  real_of_test (x i) (Host.reduce_andi_all _ _ _ _ j h i)

/-- THE PRECONDITION READ BACK: the three tests are joined by `and`, so each of them is 1, and each
    argument has only real entries. -/
theorem real_of_pre [Cert.Pre_finite_inputs.Facts]
    (x0 x1 x2 : FVec Ideal Cert.Pre_finite_inputs.S4x8x2048x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h ValueIdx.ix0
  unfold Cert.Pre_finite_inputs.fn at e
  dsimp only [andi] at e
  obtain ⟨e01, e2⟩ := IntOp.andi_eq_one.1 e
  obtain ⟨e0, e1⟩ := IntOp.andi_eq_one.1 e01
  exact ⟨real_of_all x0 _ e0, real_of_all x1 _ e1, real_of_all x2 _ e2⟩

end Cert.Attn.Finite

end
-- ==== Proof.lean ====
/-
  The certificate's five claims, assembled.

  The three frames: the two kernel programs' are the generated frame proofs; the reference has no kernel, and its frame is
  its run with the results dropped. The idealization rewrote nothing, so `preserves` is trivial. For `algebraic`: the
  idealized kernel ends with the attended values and the attention weights of the specification (a shifted softmax of the
  scaled similarities of the signed queries and keys, then its product with the values), each a function of the launch
  contents of the three arguments; the reference's run ends at its own composed term of the same contents, which is the
  same two functions once every query and key entry is a real number — the additive constant ½ the reference keeps
  inside its softmax cancels against the row maximum — and the precondition says exactly that every entry is finite.
-/
import proofs.«177471_j6932077216007_2_alg».proof.Defs
import proofs.«177471_j6932077216007_2_alg».proof.Proof.Gen.Kernel
import proofs.«177471_j6932077216007_2_alg».proof.Proof.Gen.Kernel.Skeleton
import proofs.«177471_j6932077216007_2_alg».proof.Proof.Gen.Kernel.Launch
import proofs.«177471_j6932077216007_2_alg».proof.Proof.Gen.Kernel.Points
import proofs.«177471_j6932077216007_2_alg».proof.Proof.Gen.Kernel.Frame
import proofs.«177471_j6932077216007_2_alg».proof.Proof.Gen.KernelIdeal
import proofs.«177471_j6932077216007_2_alg».proof.Proof.Gen.KernelIdeal.Skeleton
import proofs.«177471_j6932077216007_2_alg».proof.Proof.Gen.KernelIdeal.Launch
import proofs.«177471_j6932077216007_2_alg».proof.Proof.Gen.KernelIdeal.Points
import proofs.«177471_j6932077216007_2_alg».proof.Proof.Gen.KernelIdeal.Frame
import proofs.«177471_j6932077216007_2_alg».proof.Proof.Gen.ReferenceIdeal
import proofs.«177471_j6932077216007_2_alg».proof.Proof.Gen.Pre_finite_inputs
import proofs.«177471_j6932077216007_2_alg».proof.Proof.Gen.KernelIdeal.Value
import proofs.«177471_j6932077216007_2_alg».proof.Proof.Gen.ReferenceIdeal.Run
import proofs.«177471_j6932077216007_2_alg».proof.Proof.Gen.ReferenceIdeal.Read
import proofs.«177471_j6932077216007_2_alg».proof.Proof.Whole
import proofs.«177471_j6932077216007_2_alg».proof.Proof.RefSpec
import proofs.«177471_j6932077216007_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end at the specification's attended values and weights of the same argument contents. -/
theorem algebraic : Cert.algebraic_KernelIdeal_ReferenceIdeal := by
  intro m ρ m' ρ' hpre hagree
  refine ⟨fun c => Cert.KernelIdeal.Whole.attended m c, fun c => Cert.KernelIdeal.Whole.weights m c,
    Cert.KernelIdeal.Whole.run m ρ, ?_⟩
  refine (θ_run Cert.ReferenceIdeal.defs _ _).mono (fun r h c => ?_) (Cert.ReferenceIdeal.Value.run (F := Ideal) m' ρ')
  obtain ⟨hQ, hK, -⟩ := Cert.Attn.Finite.real_of_pre _ _ _ (hpre c)
  refine ⟨(h c).1.trans ?_, (h c).2.1.trans ?_, (h c).2.2⟩
  · rw [Cert.ReferenceIdeal.Read.val_main_v26_eq, (hagree c).1, (hagree c).2.1, (hagree c).2.2]
    exact Cert.Attn.Ref.ref_out _ _ _ hQ hK
  · rw [Cert.ReferenceIdeal.Read.val_main_v25_eq, (hagree c).1, (hagree c).2.1]
    exact Cert.Attn.Ref.ref_score _ _ hQ hK

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
